-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Kernel.lean ====
abbrev S16384x2048 : Shape := ⟨2, ![16384, 2048]⟩
abbrev S16x8x128 : Shape := ⟨3, ![16, 8, 128]⟩
abbrev S1024x2048 : Shape := ⟨2, ![1024, 2048]⟩
abbrev S1x8x128 : Shape := ⟨3, ![1, 8, 128]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S1x1x1 : Shape := ⟨3, ![1, 1, 1]⟩
abbrev S16x1x1 : Shape := ⟨3, ![16, 1, 1]⟩
abbrev S16 : Shape := ⟨1, ![16]⟩
abbrev S_ : Shape := ⟨0, ![]⟩

abbrev nBuf : Space → Nat
  | .hbm => 9
  | .vmem => 4
  | .smem => 0
  | _ => 0

abbrev bufTy : (tb : Table) → Fin (tcTables nBuf tb) → BufTy
  | .hbm, ⟨0, _⟩ => ⟨S16384x2048, .f32⟩
  | .hbm, ⟨1, _⟩ => ⟨S16x8x128, .f32⟩
  | .hbm, ⟨2, _⟩ => ⟨S16x1x1, .f32⟩
  | .hbm, ⟨3, _⟩ => ⟨S16, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S1x8x128, .f32⟩
  | .local _ .vmem, ⟨3, _⟩ => ⟨S1x8x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1x1 : S1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  slices_S16x8x128_S16x1x1_0_0_0 : S16x8x128.Slices ![0, 0, 0] S16x1x1
  shapeCasts_S16x1x1_S16 : S16x1x1.ShapeCasts S16
  reducesTo_S16_S_d0 : S16.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x128.size a ≤ S16x8x128.size a
  hwx0_1 : ∀ i : grid0.Coords, EltTy.bits .f32 = 32 ∨ (Rect.block (s := S16x8x128) S1x8x128.size (cc0_transform_1 i) (hinb0_1 i)).WholeWords (EltTy.packing .f32)

variable [Facts₀]

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S_ : Shape := ⟨0, ![]⟩
abbrev S16384 : Shape := ⟨1, ![16384]⟩

abbrev nBuf : Space → Nat
  | .hbm => 13
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S_, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S16384, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  reducesTo_S16384x2048_S16384_d1 : S16384x2048.ReducesTo [1] S16384
  h_S_ : 0 < S_.numel
  bcast_S_S16384 : S_.BroadcastsInDim S16384 (![] : Fin 0 → Fin S16384.rank)
  reducesTo_S16384_S_d0 : S16384.ReducesTo [0] S_

variable [Facts₀]

class Facts : Prop extends Facts₀ where

variable [Facts]
-- ==== Proof.RowNormLoss.lean ====
/-
  The quantity both programs compute, stated once over the extended reals.

  For an array x of 16384 rows and 2048 columns, row i contributes
      rowLoss x i = ((∑ k, x[i,k]²) − 1)²,
  and the result is 0.001 · sqrt(∑ i, rowLoss x i). The reference adds the 16384 row terms in one
  sum; the kernel adds them in 16 blocks of 1024 consecutive rows (blockLoss) and then adds the 16
  block sums. Addition on the extended reals is commutative and associative (also at ±∞), so the two
  groupings agree with no finiteness assumption: sum_rows_by_block.
-/
import Idealize.ShloMosaic.PureOps.Ideal
import Idealize.ShloMosaic.PureOps.Ideal.Laws
import Idealize.ShloMosaic.Lib.ValueIdx

noncomputable section

open scoped BigOperators

namespace Cert.RowNormLoss

open Idealize.ShloMosaic Idealize.ShloMosaic.ValueIdx

/-- The extended real that the f32 word of 1.0 denotes. Both programs carry the same word, so it is
    never evaluated. -/
abbrev one : EReal := Ideal.ofBits .f32 0x3F800000#32

/-- Row i's sum of squares. -/
def rowSumSq (x : (⟨2, ![16384, 2048]⟩ : Shape).Idx → EReal) (i : Fin 16384) : EReal :=
  ∑ k : Fin 2048, x (ix2 i k) * x (ix2 i k)

/-- Row i's term: the square of (the row's sum of squares minus one). -/
def rowLoss (x : (⟨2, ![16384, 2048]⟩ : Shape).Idx → EReal) (i : Fin 16384) : EReal :=
  (rowSumSq x i - one) * (rowSumSq x i - one)

/-- Row r of block t is row 1024·t + r of the array. -/
def rowOf (t : Fin 16) (r : Fin 1024) : Fin 16384 := ⟨1024 * t.val + r.val, by omega⟩

theorem rowOf_val (t : Fin 16) (r : Fin 1024) : (rowOf t r).val = 1024 * t.val + r.val := rfl

/-- Block t's partial sum: the terms of its 1024 rows added. -/
def blockLoss (x : (⟨2, ![16384, 2048]⟩ : Shape).Idx → EReal) (t : Fin 16) : EReal :=
  ∑ r : Fin 1024, rowLoss x (rowOf t r)

/-- The same partial sum written over a block v of 1024 rows by itself: what one grid point computes
    from the rows it is handed. -/
def blockSumOf (v : (⟨2, ![1024, 2048]⟩ : Shape).Idx → EReal) : EReal :=
  ∑ r : Fin 1024, ((∑ k : Fin 2048, v (ix2 r k) * v (ix2 r k)) - one) * ((∑ k : Fin 2048, v (ix2 r k) * v (ix2 r k)) - one)

/-- When v is block t of x (its row r is row 1024·t + r of x), the block's own partial sum is blockLoss x t. -/
theorem blockSumOf_eq (x : (⟨2, ![16384, 2048]⟩ : Shape).Idx → EReal) (t : Fin 16)
    (v : (⟨2, ![1024, 2048]⟩ : Shape).Idx → EReal)
    (hv : ∀ (r : Fin 1024) (k : Fin 2048), v (ix2 r k) = x (ix2 (rowOf t r) k)) :
    blockSumOf v = blockLoss x t := by
  unfold blockSumOf blockLoss rowLoss rowSumSq
  refine Finset.sum_congr rfl fun r _ => ?_
  simp only [hv]

/-- The array of partial sums the kernel leaves: every element of slab t (8 × 128 copies) is block t's sum. -/
def partials (x : (⟨2, ![16384, 2048]⟩ : Shape).Idx → EReal) : (⟨3, ![16, 8, 128]⟩ : Shape).Idx → EReal :=
  fun i => blockLoss x (i 0)

theorem partials_apply (x : (⟨2, ![16384, 2048]⟩ : Shape).Idx → EReal) (t : Fin 16) (a : Fin 8) (b : Fin 128) :
    partials x (ix3 t a b) = blockLoss x t := rfl

/-- The sum of all 16384 row terms. -/
def totalLoss (x : (⟨2, ![16384, 2048]⟩ : Shape).Idx → EReal) : EReal :=
  ∑ i : Fin 16384, rowLoss x i

/-- (block, row in block) ↔ row: the pair (t, r) names row 1024·t + r, a bijection onto the 16384 rows. -/
def blockRowEquiv : Fin 16 × Fin 1024 ≃ Fin 16384 where
  toFun p := rowOf p.1 p.2
  invFun i := (⟨i.val / 1024, by omega⟩, ⟨i.val % 1024, by omega⟩)
  left_inv p := by
    obtain ⟨t, r⟩ := p
    refine Prod.ext (Fin.ext ?_) (Fin.ext ?_)
    · show (1024 * t.val + r.val) / 1024 = t.val
      omega
    · show (1024 * t.val + r.val) % 1024 = r.val
      omega
  right_inv i := Fin.ext (by show 1024 * (i.val / 1024) + i.val % 1024 = i.val; omega)

/-- A sum over the rows, taken block by block, is the sum over the rows: in a commutative monoid a
    finite sum does not depend on how its terms are grouped. -/
theorem sum_rows_by_block {M : Type*} [AddCommMonoid M] (g : Fin 16384 → M) :
    ∑ t : Fin 16, ∑ r : Fin 1024, g (rowOf t r) = ∑ i : Fin 16384, g i := by
  rw [← Fintype.sum_prod_type (f := fun p : Fin 16 × Fin 1024 => g (rowOf p.1 p.2))]
  exact Fintype.sum_equiv blockRowEquiv _ _ (fun _ => rfl)

/-- The 16 block sums add up to the total. -/
theorem sum_blockLoss (x : (⟨2, ![16384, 2048]⟩ : Shape).Idx → EReal) :
    ∑ t : Fin 16, blockLoss x t = totalLoss x :=
  sum_rows_by_block (rowLoss x)

/-- What both programs do with the total: its square root (the host's) times the f32 word of 0.001.
    The same operations on both sides, so they are carried as one function and never opened. -/
def scaledRoot (s : FVec Ideal ⟨0, ![]⟩ .f32) : FVec Ideal ⟨0, ![]⟩ .f32 :=
  mulf (constant (F := Ideal) ⟨0, ![]⟩ .f32 0x3A83126F#32) (Host.sqrt (F := Ideal) s)

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Cert.RowNormLoss

end
-- ==== Proof.ReferenceLoss.lean ====
/-
  The reference, read index by index: its row reduction is rowSumSq, the squared difference
  from one is rowLoss, the second reduction is the sum of all 16384 row terms, and the result is
  scaledRoot of that total.
-/
import proofs.«127242_j35845797052726_2_alg».proof.Proof.Gen.ReferenceIdeal.Read
import proofs.«127242_j35845797052726_2_alg».proof.Proof.RowNormLoss

noncomputable section

open scoped BigOperators

namespace Cert.ReferenceIdeal.RefLoss

open Idealize.ShloMosaic Idealize.ShloMosaic.ValueIdx
open Cert.ReferenceIdeal Cert.ReferenceIdeal.Gen Cert.ReferenceIdeal.Read Cert.RowNormLoss

/-- The element the row reduction reads at row j, position k, is x[j, k]. -/
theorem idx_row (a : Fin 16384) (k : Fin 2048) : idx_main_v1 (ix1 a) k = ix2 a k :=
  funext fun d => by match d with | ⟨0, _⟩ => rfl | ⟨1, _⟩ => rfl

/-- The first reduction at row a: zero plus the sum over the row of the squares. -/
theorem rowSum_apply (x : (⟨S16384x2048, .f32⟩ : BufTy).Contents (Elt Ideal)) (a : Fin 16384) :
    val_main_v1 (F := Ideal) x (ix1 a) = rowSumSq x a := by
  rw [val_main_v1_apply]
  simp only [val_main_cst_apply, val_main_v0_apply, idx_row, Ideal.ofBits_def, Ideal.mulf_def,
    Ideal.ofBits_zero_f32, zero_add]
  rfl

/-- The squared difference at row a is the row's term. -/
theorem rowTerm_apply (x : (⟨S16384x2048, .f32⟩ : BufTy).Contents (Elt Ideal)) (a : Fin 16384) :
    val_main_v4 (F := Ideal) x (ix1 a) = rowLoss x a := by
  rw [val_main_v4_apply, val_main_v3_apply, val_main_v2_apply, val_main_cst_0_apply, rowSum_apply]
  rfl

/-- The second reduction is the sum of all the row terms. -/
theorem total_eq (x : (⟨S16384x2048, .f32⟩ : BufTy).Contents (Elt Ideal)) :
    val_main_v5 (F := Ideal) x = fun _ => totalLoss x := by
  funext i
  rw [val_main_v5_apply, sum_idx1]
  simp only [rowTerm_apply, val_main_cst_1_apply, Ideal.ofBits_def, Ideal.ofBits_zero_f32, zero_add]
  rfl

/-- The reference's result: scaledRoot of the total. -/
theorem result_eq (x : (⟨S16384x2048, .f32⟩ : BufTy).Contents (Elt Ideal)) :
    val_main_v7 (F := Ideal) x = scaledRoot (fun _ => totalLoss x) := by
  rw [← total_eq]
  rfl

end Cert.ReferenceIdeal.RefLoss

end
-- ==== Proof.BlockPayload.lean ====
/-
  What one grid point computes, read at an index of the block it stores: from its 1024 × 2048 block v
  the body forms the row sums of squares, subtracts one, squares, adds the 1024 results, and splats
  that one number over the whole 1 × 8 × 128 block. So every element of the stored block is
  blockSumOf v.
-/
import proofs.«127242_j35845797052726_2_alg».proof.Proof.Gen.KernelIdeal.Skeleton
import proofs.«127242_j35845797052726_2_alg».proof.Proof.RowNormLoss
import Idealize.ShloMosaic.Lib.Pipeline.Value
import Idealize.ShloMosaic.Lib.ValueIdx
import Idealize.ShloMosaic.PureOps.Ideal.Laws

noncomputable section

open scoped BigOperators

namespace Cert.KernelIdeal.BlockValue

open Idealize.ShloMosaic Idealize.ShloMosaic.ValueIdx
open Cert.KernelIdeal Cert.KernelIdeal.Gen Cert.RowNormLoss

/-- A sum along the columns, at row r: the sum over k of the entries (r, k). -/
theorem rowReduce_apply (v : FVec Ideal S1024x2048 .f32) (h : S1024x2048.Reduces [1] S1024) (hφ : FKind.Formats .f32)
    (hacc : (0x00000000#32 : BitVec 32) = FKind.add.neutral .f32 hφ) (r : Fin 1024) :
    multiReduction .add [1] S1024 v 0x00000000#32 h hφ hacc (ix1 r) = ∑ k : Fin 2048, v (ix2 r k) := by
  refine (Ideal.multiReduction_add_single v 0x00000000#32 h hφ hacc (ix1 r)).trans ?_
  refine Finset.sum_congr rfl fun k _ => congrArg v ?_
  funext a
  match a with
  | ⟨0, _⟩ => rfl
  | ⟨1, _⟩ => rfl

/-- A sum down a column of height 1024 and width 1: the sum over r of the entries (r, 0). -/
theorem colReduce_apply (v : FVec Ideal S1024x1 .f32) (h : S1024x1.Reduces [0] S1) (hφ : FKind.Formats .f32)
    (hacc : (0x00000000#32 : BitVec 32) = FKind.add.neutral .f32 hφ) :
    multiReduction .add [0] S1 v 0x00000000#32 h hφ hacc (ix1 0) = ∑ r : Fin 1024, v (ix2 r 0) := by
  refine (Ideal.multiReduction_add_single v 0x00000000#32 h hφ hacc (ix1 0)).trans ?_
  refine Finset.sum_congr rfl fun r _ => congrArg v ?_
  funext a
  match a with
  | ⟨0, _⟩ => rfl
  | ⟨1, _⟩ => rfl

/-- A vector of 1024 entries viewed as a column: entry (r, 0) is entry r. -/
theorem colCast_apply {α : Type} (v : S1024.Idx → α) (h : S1024.ShapeCasts S1024x1) (r : Fin 1024) :
    shapeCast S1024x1 v h (ix2 r 0) = v (ix1 r) :=
  shapeCast_apply v h (ix2 r 0) (ix1 r) (by
    rw [Shape.rowMajor_val_one, Shape.rowMajor_val_two]
    show r.val = r.val * 1 + 0
    omega)

/-- One entry viewed as a 1 × 1 array … -/
theorem cast11_apply {α : Type} (v : S1.Idx → α) (h : S1.ShapeCasts S1x1) :
    shapeCast S1x1 v h (ix2 0 0) = v (ix1 0) :=
  shapeCast_apply v h (ix2 0 0) (ix1 0) (by rw [Shape.rowMajor_val_one, Shape.rowMajor_val_two]; rfl)

/-- … and as a 1 × 1 × 1 array. -/
theorem cast111_apply {α : Type} (v : S1x1.Idx → α) (h : S1x1.ShapeCasts S1x1x1) :
    shapeCast S1x1x1 v h (ix3 0 0 0) = v (ix2 0 0) :=
  shapeCast_apply v h (ix3 0 0 0) (ix2 0 0) (by rw [Shape.rowMajor_val_two, Shape.rowMajor_val_three]; rfl)

/-- A 1 × 1 × 1 array splatted over 1 × 8 × 128 reads its one entry everywhere. -/
theorem splat_apply {α : Type} (v : S1x1x1.Idx → α) (h : S1x1x1.Broadcasts S1x8x128) (j : S1x8x128.Idx) :
    broadcastTo S1x8x128 v h j = v (ix3 0 0 0) :=
  broadcastTo_apply v h j (ix3 0 0 0) (fun a => by
    match a with
    | ⟨0, _⟩ => rfl
    | ⟨1, _⟩ => rfl
    | ⟨2, _⟩ => rfl)

/-- The squared difference from one, at row r of the column: (w r − 1)². -/
theorem term_apply (w : FVec Ideal S1024 .f32) (h : S1024.ShapeCasts S1024x1) (r : Fin 1024) :
    mulf (subf (shapeCast S1024x1 w h) (broadcast S1024x1 (Scalar.ofBits (F := Ideal) .f32 0x3F800000#32)))
        (subf (shapeCast S1024x1 w h) (broadcast S1024x1 (Scalar.ofBits (F := Ideal) .f32 0x3F800000#32))) (ix2 r 0)
      = (w (ix1 r) - one) * (w (ix1 r) - one) := by
  rw [mulf_apply, subf_apply, colCast_apply]
  rfl

/-- Every element of the block a grid point stores is the partial sum of the block it loaded. -/
theorem pay_apply (v0 : Vec Ideal S1024x2048 .f32) (j : S1x8x128.Idx) :
    k0_pay1 (F := Ideal) v0 j = blockSumOf v0 := by
  unfold k0_pay1
  dsimp only
  rw [splat_apply, cast111_apply, cast11_apply]
  refine (colReduce_apply _ _ _ _).trans ?_
  unfold blockSumOf
  refine Finset.sum_congr rfl fun r _ => ?_
  refine (term_apply _ _ r).trans ?_
  exact congrArg (fun s : EReal => (s - one) * (s - one)) (rowReduce_apply (mulf v0 v0) _ _ _ r)

end Cert.KernelIdeal.BlockValue

end
-- ==== Proof.KernelPartials.lean ====
/-
  From blocks to the array. Grid point t loads rows 1024·t … 1024·t + 1023 of the argument and writes
  back slab t of the 16 × 8 × 128 output; by the payload lemma every element it writes is blockLoss x t.
  The 16 slabs tile the output, so after the run the output array is partials x: element (t, a, b) is
  block t's partial sum.
-/
import proofs.«127242_j35845797052726_2_alg».proof.Proof.Gen.KernelIdeal.Frame
import proofs.«127242_j35845797052726_2_alg».proof.Proof.BlockPayload
import Idealize.ShloMosaic.Lib.Pipeline.Value

noncomputable section

open scoped BigOperators

namespace Cert.KernelIdeal.Partials

open Idealize.ShloMosaic Idealize.ShloMosaic.TcCoe Idealize.SL.Sem Idealize.ShloMosaic.ValueIdx
open Idealize.ShloMosaic.Pipeline (Dat)
open Cert.KernelIdeal Cert.KernelIdeal.Gen Cert.RowNormLoss Cert.KernelIdeal.BlockValue

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The printed index maps, decided over the 16 grid points: point t takes row block t of the argument
    and slab t of the output, at column block 0. -/
theorem block_index : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

theorem point_lt (t : Fin cfg0.N) : t.val < 16 := Nat.lt_of_lt_of_eq t.isLt N_0

/-- A grid point as a block number below 16. -/
def blockOf (t : Fin cfg0.N) : Fin 16 := ⟨t.val, point_lt t⟩

/-- Entry (r, k) of the block point t loads is x[1024·t + r, k]. -/
theorem iblk_apply (c : Dev nD) (t : Fin cfg0.N) (r : Fin 1024) (k : Fin 2048) :
    (iblk m c 0 t : Vec Ideal S1024x2048 .f32) (ix2 r k)
      = (m ((c : Thread nD τ).loc main_arg0) : S16384x2048.Idx → EReal) (ix2 (rowOf (blockOf t) r) k) := by
  obtain ⟨e0, e1, -⟩ := block_index t
  unfold iblk
  rw [View.read_apply]
  show V m c main_arg0 _ = m (c.tc.loc main_arg0) _
  rw [V_main_arg0]
  refine congrArg _ (funext fun a => Fin.ext ?_)
  match a with
  | ⟨0, _⟩ =>
    show win0_0.index t 0 * 1024 + 1 * r.val = 1024 * t.val + r.val
    rw [e0]; omega
  | ⟨1, _⟩ =>
    show win0_0.index t 1 * 2048 + 1 * k.val = k.val
    rw [e1]; omega

/-- What point t writes back is slab t of partials x. -/
theorem flushed_eq (c : Dev nD) (t : Fin cfg0.N) :
    (dats m 0 c).flushed 1 t
      = ((cfg0.win 1).blk t).view.read (Elt Ideal) (partials (m ((c : Thread nD τ).loc main_arg0))) := by
  show (cfg0.win 1).cut (grid0.coords t) ((dats m 0 c).after 1 t) = _
  rw [after0_1]
  unfold out0_1
  rw [View.canon_unit_zero zero3]
  simp only [View.ld_unit_zero (S := S1024x2048) zero2]
  funext j
  show k0_pay1 (iblk m c 0 t) j = partials _ (((cfg0.win 1).blk t).view.emb j)
  rw [pay_apply, blockSumOf_eq _ (blockOf t) _ (iblk_apply m c t)]
  unfold partials
  refine congrArg (blockLoss _) (Fin.ext ?_)
  obtain ⟨-, -, e2, -, -⟩ := block_index t
  have hj : (j 0).val < 1 := (j 0).isLt
  show t.val = win0_1.index t 0 * 1 + 1 * (j 0).val
  rw [e2]; omega

/-- An index of the output is in point t's slab iff each coordinate is in the slab's range. -/
theorem mem_slab (t : Fin cfg0.N) (i : S16x8x128.Idx) :
    i ∈ ((cfg0.win 1).blk t).view.set ↔ ∀ a : Fin 3, win0_1.index t a * S1x8x128.size a ≤ (i a).val
      ∧ (i a).val < win0_1.index t a * S1x8x128.size a + S1x8x128.size a := by
  show i ∈ ((View.whole main_v0).slice (win0_1.rect t)).set ↔ _
  rw [View.set_slice_whole, Rect.mem_set_unit]
  exact Iff.rfl

/-- Every index (t, a, b) of the output lies in the slab point t writes back. -/
theorem slabs_cover (i : S16x8x128.Idx) :
    ∃ t : Fin cfg0.N, (cfg0.win 1).flush t = true ∧ i ∈ ((cfg0.win 1).blk t).view.set := by
  have h0 : (i 0).val < 16 := (i 0).isLt
  have h1 : (i 1).val < 8 := (i 1).isLt
  have h2 : (i 2).val < 128 := (i 2).isLt
  obtain ⟨t, ht⟩ : ∃ t : Fin cfg0.N, t.val = (i 0).val :=
    ⟨⟨(i 0).val, by rw [show cfg0.N = 16 from N_0]; exact h0⟩, rfl⟩
  obtain ⟨-, -, e2, e3, e4⟩ := block_index t
  refine ⟨t, flush0_1 t, ?_⟩
  rw [mem_slab]
  intro a
  match a with
  | ⟨0, _⟩ =>
    show win0_1.index t 0 * 1 ≤ (i 0).val ∧ (i 0).val < win0_1.index t 0 * 1 + 1
    rw [e2]; omega
  | ⟨1, _⟩ =>
    show win0_1.index t 1 * 8 ≤ (i 1).val ∧ (i 1).val < win0_1.index t 1 * 8 + 8
    rw [e3]; omega
  | ⟨2, _⟩ =>
    show win0_1.index t 2 * 128 ≤ (i 2).val ∧ (i 2).val < win0_1.index t 2 * 128 + 128
    rw [e4]; omega

/-- The output array after the run is partials x. -/
theorem final (c : Dev nD) :
    (dats m 0 c).arrAt 1 cfg0.N = partials (m ((c : Thread nD τ).loc main_arg0)) :=
  (dats m 0 c).arrAt_eq_of_cover 1 _ (fun t _ => flushed_eq m c t) slabs_cover

end Cert.KernelIdeal.Partials

end
-- ==== Proof.KernelRun.lean ====
/-
  The kernel's program, run and read. After the grid, the host takes element (t, 0, 0) of each slab of
  the output (a slice and a reshape: a vector of the 16 block sums), adds the 16 entries, takes the
  square root and multiplies by the f32 word of 0.001. Since slab t holds blockLoss x t and the 16
  block sums add up to the sum of all 16384 row terms, the result is scaledRoot of the total: the
  same term the reference's run is read to.
-/
import proofs.«127242_j35845797052726_2_alg».proof.Proof.Gen.KernelIdeal.Frame
import proofs.«127242_j35845797052726_2_alg».proof.Proof.KernelPartials
import Idealize.ShloMosaic.Lib.Pipeline.Value
import Idealize.ShloMosaic.Lib.StableHlo.Run

noncomputable section

open scoped BigOperators

namespace Cert.KernelIdeal.LossRun

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.RowNormLoss Cert.KernelIdeal.Partials

variable (m : (ℓ : Loc nD τ sig) → Buf (Elt Ideal) ℓ) (ρ : Dev nD → PrngReg)

/-- The slice [0:16, 0:1, 0:1] of a 16 × 8 × 128 array, viewed as a vector of 16: entry t is element (t, 0, 0). -/
theorem corner_apply {α : Type} (A : S16x8x128.Idx → α) (hs : S16x8x128.Slices ![0, 0, 0] S16x1x1)
    (hc : S16x1x1.ShapeCasts S16) (t : Fin 16) :
    shapeCast S16 (extractStridedSlice S16x1x1 ![0, 0, 0] A hs) hc (ix1 t) = A (ix3 t 0 0) := by
  rw [shapeCast_apply _ hc (ix1 t) (ix3 t 0 0) (by
    rw [Shape.rowMajor_val_one, Shape.rowMajor_val_three]
    show ((t.val * 1 + 0) * 1 + 0) = t.val
    omega)]
  exact extractStridedSlice_apply _ A hs (ix3 t 0 0) (ix3 t 0 0) (fun a => by
    match a with
    | ⟨0, _⟩ => show t.val = 0 + t.val; omega
    | ⟨1, _⟩ => rfl
    | ⟨2, _⟩ => rfl)

/-- The host's sum of a vector of 16 from the zero word: the sum of its 16 entries. -/
theorem hostSum_apply (y : FVec Ideal S16 .f32) (h' : S16.ReducesTo [0] S_) (hpos : 0 < S_.numel) (i : S_.Idx) :
    Host.reduceAdd (F := Ideal) y (constant (F := Ideal) S_ .f32 0x00000000#32) h' hpos i = ∑ t : Fin 16, y (ix1 t) := by
  simp only [Host.reduceAdd, Ideal.hostReduceAdd_def]
  rw [Ideal.hostReduceAdd_total h' (fun b => b.elim0), sum_idx1]
  show Ideal.ofBits .f32 0x00000000#32 + _ = _
  rw [Ideal.ofBits_zero_f32, zero_add]

/-- What the host lines after the grid leave in the result: scaledRoot of the total. -/
theorem tail_eq (c : Dev nD) :
    Pipeline.afterTail₀ cfgs (dats m) 0 (V0 m) [hostOps1] c main_v5
      = scaledRoot (fun _ => totalLoss (m ((c : Thread nD τ).loc main_arg0))) := by
  have hA : Pipeline.withArrays (cfgs 0).spec c (V0 m c) (fun w => (dats m 0 c).arrAt w (cfgs 0).N) (Proc.devRef .tc main_v0)
      = partials (m ((c : Thread nD τ).loc main_arg0)) :=
    (Pipeline.withArrays_arr spec0 launch0.win.arr_inj c _ _ 1).trans (final m c)
  unfold Pipeline.afterTail₀
  show StableHlo.after hostOps1 _ (Proc.devRef .tc main_v5) = _
  after_results
  show scaledRoot _ = _
  refine congrArg scaledRoot (funext fun i => ?_)
  refine (hostSum_apply _ _ _ i).trans ?_
  rw [← sum_blockLoss]
  refine Finset.sum_congr rfl fun t _ => ?_
  refine (corner_apply _ _ _ t).trans ?_
  exact (congrFun hA (ix3 t 0 0)).trans (partials_apply _ t 0 0)

/-- The run of the kernel's program: every weakly fair execution terminates with the result at scaledRoot
    of the total of the argument's row terms, and the argument unchanged. -/
theorem run : θ_run defs (onTc (τ := τ) (main (F := Ideal))) ⟨m, fun _ => 0, ρ⟩ fun r => ∀ c : Dev nD,
      r.2.mem ((c.tc : Thread nD τ).loc main_v5) = scaledRoot (fun _ => totalLoss (m ((c.tc : Thread nD τ).loc main_arg0)))
      ∧ r.2.mem ((c.tc : Thread nD τ).loc main_arg0) = m ((c.tc : Thread nD τ).loc main_arg0) :=
  (θ_run defs _ _).mono (fun _ h c =>
      ⟨((h c).2 main_v5 (Pipeline.mem_restRefs_of main_v5 (by decide) (by decide))).trans (tail_eq m c),
        ((h c).1 0).trans (((dats m 0 c).arrAt_in 0 rfl _).trans ((A_eq m c 0).trans (V_main_arg0 m c)))⟩)
    (run_main m ρ)

end Cert.KernelIdeal.LossRun

end
-- ==== Proof.lean ====
/-
  The kernel and its reference compute 0.001 · sqrt(∑ i, ((∑ k, d[i,k]²) − 1)²) over a 16384 × 2048 array d.

  The reference forms the 16384 row terms and adds them in one sum. The kernel runs over 16 grid points;
  point t takes rows 1024·t … 1024·t + 1023, adds their 1024 row terms and splats that one number over
  slab t of a 16 × 8 × 128 output; the host then picks element (t, 0, 0) of each slab, adds the 16 numbers,
  takes the square root and scales. Read over the extended reals, where every operation is exact, the
  two differ only in how the sum of the row terms is grouped, and a finite sum in a commutative monoid
  does not depend on the grouping (also at ±∞), so no finiteness of the input is used. The literals
  (the words of 0, 1 and 0.001) are the same on both sides and are never evaluated, except that the
  word of 0 denotes 0.

  Modules: RowNormLoss (the row terms, the block sums, the regrouping), ReferenceLoss (the reference's
  run is scaledRoot of the total), BlockPayload (what one grid point stores), KernelPartials (the output
  array after the grid), KernelRun (the host lines after the grid, and the run). The kernel read over the
  extended reals is the kernel's own text with nothing rewritten, so the idealization claim is trivial.
-/
import proofs.«127242_j35845797052726_2_alg».proof.Defs
import proofs.«127242_j35845797052726_2_alg».proof.Proof.Gen.Kernel
import proofs.«127242_j35845797052726_2_alg».proof.Proof.Gen.Kernel.Skeleton
import proofs.«127242_j35845797052726_2_alg».proof.Proof.Gen.Kernel.Launch
import proofs.«127242_j35845797052726_2_alg».proof.Proof.Gen.Kernel.Points
import proofs.«127242_j35845797052726_2_alg».proof.Proof.Gen.Kernel.Frame
import proofs.«127242_j35845797052726_2_alg».proof.Proof.Gen.KernelIdeal
import proofs.«127242_j35845797052726_2_alg».proof.Proof.Gen.KernelIdeal.Skeleton
import proofs.«127242_j35845797052726_2_alg».proof.Proof.Gen.KernelIdeal.Launch
import proofs.«127242_j35845797052726_2_alg».proof.Proof.Gen.KernelIdeal.Points
import proofs.«127242_j35845797052726_2_alg».proof.Proof.Gen.KernelIdeal.Frame
import proofs.«127242_j35845797052726_2_alg».proof.Proof.Gen.ReferenceIdeal
import proofs.«127242_j35845797052726_2_alg».proof.Proof.Gen.ReferenceIdeal.Run
import proofs.«127242_j35845797052726_2_alg».proof.Proof.Gen.ReferenceIdeal.Read
import proofs.«127242_j35845797052726_2_alg».proof.Proof.Gen.Pre_finite_inputs
import proofs.«127242_j35845797052726_2_alg».proof.Proof.ReferenceLoss
import proofs.«127242_j35845797052726_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and leaves its argument unchanged: the generated frame. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel read over the extended reals is its own text: no operation was rewritten. -/
theorem preserves : Cert.preserves_Kernel_KernelIdeal := trivial

/-- Both runs end with the result at scaledRoot of the total of the argument's row terms: the kernel's by
    KernelRun (16 block sums added), the reference's by ReferenceLoss (one sum), of arguments that agree. -/
theorem algebraic : Cert.algebraic_KernelIdeal_ReferenceIdeal := by
  intro m ρ m' ρ' _ hagree
  refine ⟨fun c => Cert.RowNormLoss.scaledRoot
      (fun _ => Cert.RowNormLoss.totalLoss (m ((c.tc : Thread Cert.KernelIdeal.nD Cert.KernelIdeal.τ).loc Cert.KernelIdeal.main_arg0))),
    Cert.KernelIdeal.LossRun.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v7_eq, Cert.ReferenceIdeal.RefLoss.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
